-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x1x8192 : Shape := ⟨3, ![4, 1, 8192]⟩
abbrev S1x128x3 : Shape := ⟨3, ![1, 128, 3]⟩
abbrev S1x8192x3 : Shape := ⟨3, ![1, 8192, 3]⟩
abbrev S1x128x1 : Shape := ⟨3, ![1, 128, 1]⟩
abbrev S1x1x8192 : Shape := ⟨3, ![1, 1, 8192]⟩
abbrev S1x8192 : Shape := ⟨2, ![1, 8192]⟩
abbrev S128x3 : Shape := ⟨2, ![128, 3]⟩
abbrev S8192x3 : Shape := ⟨2, ![8192, 3]⟩
abbrev S128 : Shape := ⟨1, ![128]⟩
abbrev S128x1 : Shape := ⟨2, ![128, 1]⟩
abbrev S8192 : Shape := ⟨1, ![8192]⟩
abbrev S8192x1 : Shape := ⟨2, ![8192, 1]⟩
abbrev S128x8192 : Shape := ⟨2, ![128, 8192]⟩
abbrev S4x8192 : Shape := ⟨2, ![4, 8192]⟩
abbrev S_ : Shape := ⟨0, ![]⟩
abbrev S4 : Shape := ⟨1, ![4]⟩

abbrev nBuf : Space → Nat
  | .hbm => 21
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x128x3, .f32⟩
  | .local _ .vmem, ⟨1, _⟩ => ⟨S1x128x3, .f32⟩
  | .local _ .vmem, ⟨2, _⟩ => ⟨S1x8192x3, .f32⟩
  | .local _ .vmem, ⟨3, _⟩ => ⟨S1x8192x3, .f32⟩
  | .local _ .vmem, ⟨4, _⟩ => ⟨S1x128x1, .f32⟩
  | .local _ .vmem, ⟨5, _⟩ => ⟨S1x128x1, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S128x3_S128 : S128x3.Reduces [1] S128
  shapeCasts_S128_S128x1 : S128.ShapeCasts S128x1
  reduces_S8192x3_S8192 : S8192x3.Reduces [1] S8192
  shapeCasts_S8192_S8192x1 : S8192.ShapeCasts S8192x1
  transposes_S8192x1_p1_0_S1x8192 : S8192x1.Transposes [1, 0] S1x8192
  broadcasts_S128x1_S128x8192 : S128x1.Broadcasts S128x8192
  broadcasts_S1x8192_S128x8192 : S1x8192.Broadcasts S128x8192
  reduces_S128x8192_S128 : S128x8192.Reduces [1] S128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reduces_S128x8192_S8192 : S128x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S128x3_S8192x3_S128x8192_1_1_0_0_n_n_wf : DotDims.WF S128x3 S8192x3 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S4x8192x3.size a
  hwx0_0 : ∀ i : grid0.Coords, EltTy.bits .f32 = 32 ∨ (Rect.block (s := S4x8192x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S4x8192x1.size a
  hwx0_2 : ∀ i : grid0.Coords, EltTy.bits .f32 = 32 ∨ (Rect.block (s := S4x8192x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S128x3_S8192x3_S128x8192_1_1_0_0_n_n : DotDims S128x3 S8192x3 S128x8192 where
  lhsContracting := [1]
  rhsContracting := [1]
  lhsNonContracting := [0]
  rhsNonContracting := [0]
  lhsBatch := []
  rhsBatch := []
  wf := dot_S128x3_S8192x3_S128x8192_1_1_0_0_n_n_wf

abbrev win0_0 : Pipeline.Window sig grid0 :=
  Pipeline.Window.ofSpec (Memref.whole main_arg0) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What one run of the body leaves behind, as values. The body has two cases: at the first tile of a batch it first fills the
  running column minimum with `+∞`; at every other tile it starts from what the tile before left there. In both cases,
  with `x0` the tile of the first cloud and `x1` the second cloud of the batch:

  * the row-minimum output block ends at the row minima of the tile (one store of the whole block);
  * the running column minimum ends at `min` (what it held — the fill, or the carried value `xs0`) (the tile's column
    minima) (the last store of the whole buffer; a load of the whole buffer after a store of the whole buffer reads what
    was stored);
  * the column-minimum output block ends at that same running minimum, with a unit axis added.
  For every float instance.
-/
import proofs.«124071_j88699664597867_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after several stores, the last of which overwrote the whole buffer, reads that last
    store's payload, whatever the earlier stores were. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A point that does not reset the scratch leaves, in the row-minimum output's buffer, the row minima of its tile. -/
theorem out_B_2 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i)
    (x0 : Vec F S1x128x3 .f32) (x1 : Vec F S1x8192x3 .f32) (xs0 : Vec F S1x8192 .f32) :
    out0_B_2 c i arg2 harg2 arg3 harg3 arg4 harg4 arg5 harg5 arg6 harg6 hc0 x0 x1 xs0 = k0_pay4 x0 x1 := by
  unfold out0_B_2
  rw [View.read_writes_eq_canon _ _ _ (cover0_B_2 c i arg2 harg2 arg3 harg3 arg4 harg4 arg5 harg5 arg6 harg6 hc0 x0 x1 xs0)]
  unfold kernelRun0_B
  dsimp only
  rw [View.canon_unit_zero hz3]
  simp only [View.readAt_eq_ld, harg2.read_unread, harg3.read_unread, harg6.read_unread, View.ld_unit_zero (S := S1x128x3) hz3, View.ld_unit_zero (S := S1x8192x3) hz3, View.ld_unit_zero (S := S1x8192) hz2]

theorem sout_B_0 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i)
    (x0 : Vec F S1x128x3 .f32) (x1 : Vec F S1x8192x3 .f32) (xs0 : Vec F S1x8192 .f32) :
    sout0_B_0 c i arg2 harg2 arg3 harg3 arg4 harg4 arg5 harg5 arg6 harg6 hc0 x0 x1 xs0 = k0_pay5 x0 x1 xs0 := by
  unfold sout0_B_0
  rw [View.read_writes_eq_canon _ _ _ (scover0_B_0 c i arg2 harg2 arg3 harg3 arg4 harg4 arg5 harg5 arg6 harg6 hc0 x0 x1 xs0)]
  unfold kernelRun0_B
  dsimp only
  sl_unfold_words
  rw [View.canon_unit_zero hz2]
  simp only [View.readAt_eq_ld, harg2.read_unread, harg3.read_unread, harg6.read_unread, View.ld_unit_zero (S := S1x128x3) hz3, View.ld_unit_zero (S := S1x8192x3) hz3, View.ld_unit_zero (S := S1x8192) hz2]

theorem out_B_3 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i)
    (x0 : Vec F S1x128x3 .f32) (x1 : Vec F S1x8192x3 .f32) (xs0 : Vec F S1x8192 .f32) :
    out0_B_3 c i arg2 harg2 arg3 harg3 arg4 harg4 arg5 harg5 arg6 harg6 hc0 x0 x1 xs0 = k0_pay1 (k0_pay5 x0 x1 xs0) := by
  unfold out0_B_3
  rw [View.read_writes_eq_canon _ _ _ (cover0_B_3 c i arg2 harg2 arg3 harg3 arg4 harg4 arg5 harg5 arg6 harg6 hc0 x0 x1 xs0)]
  unfold kernelRun0_B
  dsimp only
  sl_unfold_words
  rw [View.canon_unit_zero hz3, View.readCov_unit_zero (S := S1x8192) _ hz2]
  simp only [View.readAt_eq_ld, harg2.read_unread, harg3.read_unread, harg6.read_unread, View.ld_unit_zero (S := S1x128x3) hz3, View.ld_unit_zero (S := S1x8192x3) hz3, View.ld_unit_zero (S := S1x8192) hz2]

theorem out_A_2 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i)
    (x0 : Vec F S1x128x3 .f32) (x1 : Vec F S1x8192x3 .f32) :
    out0_A_2 c i arg2 harg2 arg3 harg3 arg4 harg4 arg5 harg5 arg6 harg6 hc0 x0 x1 = k0_pay4 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  rw [View.canon_unit_zero hz3]
  simp only [View.readAt_eq_ld, harg2.read_unread, harg3.read_unread, harg6.read_unread, View.ld_unit_zero (S := S1x128x3) hz3, View.ld_unit_zero (S := S1x8192x3) hz3, View.ld_unit_zero (S := S1x8192) hz2]

theorem sout_A_0 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i)
    (x0 : Vec F S1x128x3 .f32) (x1 : Vec F S1x8192x3 .f32) :
    sout0_A_0 c i arg2 harg2 arg3 harg3 arg4 harg4 arg5 harg5 arg6 harg6 hc0 x0 x1 = k0_pay5 x0 x1 k0_pay2 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_cons_unit_zero (S := S1x8192) hz2, View.readCov_unit_zero (S := S1x8192) _ hz2]
  simp only [View.readAt_eq_ld, harg2.read_unread, harg3.read_unread, harg6.read_unread, View.ld_unit_zero (S := S1x128x3) hz3, View.ld_unit_zero (S := S1x8192x3) hz3, View.ld_unit_zero (S := S1x8192) hz2]

theorem out_A_3 (c : Dev nD) (i : grid0.Coords) (arg2 : Memref sig .tc .vmem S1x128x3 .f32) (harg2 : arg2.IsWhole) (arg3 : Memref sig .tc .vmem S1x8192x3 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i)
    (x0 : Vec F S1x128x3 .f32) (x1 : Vec F S1x8192x3 .f32) :
    out0_A_3 c i arg2 harg2 arg3 harg3 arg4 harg4 arg5 harg5 arg6 harg6 hc0 x0 x1 = k0_pay1 (k0_pay5 x0 x1 k0_pay2) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_unit_zero hz3, readCov_cons_whole (S := S1x8192) _ hz2, View.readCov_unit_zero (S := S1x8192) _ hz2]
  simp only [View.readAt_eq_ld, harg2.read_unread, harg3.read_unread, harg6.read_unread, View.ld_unit_zero (S := S1x128x3) hz3, View.ld_unit_zero (S := S1x8192x3) hz3, View.ld_unit_zero (S := S1x8192) hz2]

end Cert.KernelIdeal.Pieces

end
-- ==== Proof.Spec.lean ====
/-
  What both programs compute, stated once over the extended reals and over no program.

  The inputs are two clouds of 8192 points of 3-space in each of 4 batches, `X0` and `X1 : [4, 8192, 3]`. For points
  `p`, `q` the squared distance is taken in its expanded form `sqd p q = (|p|² + |q|²) − 2 · (p · q)`, the sums over the three
  coordinates, the factor `2` the word both programs print. `rowMin b n` is the minimum over all `m` of
  `sqd (X0 b n) (X1 b m)`, `colMin b m` the minimum over all `n`; each minimum starts from the word of `+∞` both programs
  print, which is never evaluated. The result is the mean over the batches of (mean of the row minima + mean of the
  column minima), `meanOfMeans`: a sum over 8192 divided by the word of 8192, twice, their sum, then a sum over 4 divided by
  the word of 4 — the same host operations in both programs, so it is stated once and never opened.

  Two layout facts used to bring the kernel's two result arrays to that tail: an `[a, b, 1]` array, and an `[a, 1, b]`
  array, reshaped to `[a, b]` read at `(i, j)` their entries `(i, j, 0)` and `(i, 0, j)`.
-/
import Idealize.ShloMosaic.Lib.Pipeline.Value
import Idealize.ShloMosaic.Lib.ValueIdx
import Idealize.ShloMosaic.PureOps.Ideal.Laws

noncomputable section

open scoped BigOperators

namespace Cert.Chamfer

open Idealize.ShloMosaic Idealize.ShloMosaic.ValueIdx

/-- The word of `+∞` both minima start from, as an extended real (not evaluated). -/
abbrev topW : EReal := Ideal.ofBits .f32 0x7F800000#32
/-- The word of `2`, as an extended real (not evaluated). -/
abbrev twoW : EReal := Ideal.ofBits .f32 0x40000000#32

/-- The squared distance of two points of 3-space in expanded form: `(|p|² + |q|²) − 2 · (p · q)`. -/
def sqd (p q : Fin 3 → EReal) : EReal := ((∑ k, p k * p k) + (∑ k, q k * q k)) - twoW * ∑ k, p k * q k

/-- The two point clouds' shape, the shape of a per-batch, per-point value, and the shapes of the kernel's two results. -/
abbrev Pts : Shape := ⟨3, ![4, 8192, 3]⟩
abbrev Mat : Shape := ⟨2, ![4, 8192]⟩
abbrev RowArr : Shape := ⟨3, ![4, 8192, 1]⟩
abbrev ColArr : Shape := ⟨3, ![4, 1, 8192]⟩
abbrev Vec4 : Shape := ⟨1, ![4]⟩
abbrev Sca : Shape := ⟨0, ![]⟩

/-- Point `n` of batch `b`. -/
def pt (X : Pts.Idx → EReal) (b : Fin 4) (n : Fin 8192) : Fin 3 → EReal := fun k => X (ix3 b n k)

/-- The distance from point `n` of the first cloud to the nearest point of the second. -/
def rowMin (X0 X1 : Pts.Idx → EReal) (b : Fin 4) (n : Fin 8192) : EReal :=
  (Finset.univ : Finset (Fin 8192)).fold min topW fun m => sqd (pt X0 b n) (pt X1 b m)

/-- The distance from point `m` of the second cloud to the nearest point of the first. -/
def colMin (X0 X1 : Pts.Idx → EReal) (b : Fin 4) (m : Fin 8192) : EReal :=
  (Finset.univ : Finset (Fin 8192)).fold min topW fun n => sqd (pt X0 b n) (pt X1 b m)

/-- The row minima and the column minima as `[4, 8192]` arrays, and in the kernel's two result layouts. -/
def rowMat (X0 X1 : Pts.Idx → EReal) : Mat.Idx → EReal := fun i => rowMin X0 X1 (i 0) (i 1)
def colMat (X0 X1 : Pts.Idx → EReal) : Mat.Idx → EReal := fun i => colMin X0 X1 (i 0) (i 1)
def rowArr (X0 X1 : Pts.Idx → EReal) : RowArr.Idx → EReal := fun i => rowMin X0 X1 (i 0) (i 1)
def colArr (X0 X1 : Pts.Idx → EReal) : ColArr.Idx → EReal := fun i => colMin X0 X1 (i 0) (i 2)

/-- The tail both programs end with: the mean over the 4 batches of (the mean of `R`'s 8192 entries + the mean of `C`'s),
    in the host's own operations, at the ideal values. -/
def meanOfMeans (hr1 : Mat.ReducesTo [1] Vec4) (h0 : 0 < Sca.numel) (hb : Sca.BroadcastsInDim Vec4 (![] : Fin 0 → Fin Vec4.rank))
    (hr0 : Vec4.ReducesTo [0] Sca) (R C : Mat.Idx → EReal) : Sca.Idx → EReal :=
  Host.divf (F := Ideal) (φ := .f32)
    (Host.reduceAdd (F := Ideal) (φ := .f32)
      (addf (F := Ideal) (φ := .f32)
        (Host.divf (F := Ideal) (φ := .f32) (Host.reduceAdd (F := Ideal) (φ := .f32) R (constant (F := Ideal) Sca .f32 0x00000000#32) hr1 h0)
          (broadcastInDim Vec4 ![] hb (constant (F := Ideal) Sca .f32 0x46000000#32)))
        (Host.divf (F := Ideal) (φ := .f32) (Host.reduceAdd (F := Ideal) (φ := .f32) C (constant (F := Ideal) Sca .f32 0x00000000#32) hr1 h0)
          (broadcastInDim Vec4 ![] hb (constant (F := Ideal) Sca .f32 0x46000000#32))))
      (constant (F := Ideal) Sca .f32 0x00000000#32) hr0 h0)
    (constant (F := Ideal) Sca .f32 0x40800000#32)

variable {α : Type}

/-- An `[a, b, 1]` array reshaped to `[a, b]` reads, at `(i, j)`, its entry `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- An `[a, 1, b]` array reshaped to `[a, b]` reads, at `(i, j)`, its entry `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Chamfer

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.LibMinReduce.lean ====
/-
  Minimum reductions read at an index, at the ideal values (where a float minimum is `min` on the extended reals):

  * `multiReduction_minimumf_single`: a float `vector.multi_reduction <minimumf>` over one axis is, at a reduced index,
    the minimum from the accumulator's value over that axis's coordinates;
  * `multiReduction_minimumf_lanes_apply`: of an `[a, b]` vector over its lanes, at row `p`: over the entries `(p, k)`;
  * `multiReduction_minimumf_rows_apply`: of an `[a, b]` vector over its rows, at column `q`: over the entries `(k, q)`;
  * `hostReduce_min_last_apply` / `hostReduce_min_mid_apply`: the host's one-operand reduce by minimum of an
    `[n0, n1, n2]` array over its last / its middle axis, at `(a, b)`: the minimum from the initial value's element over
    the entries `(a, b, k)` / `(a, k, b)`.
  Any extents, any float format.
-/
import Idealize.ShloMosaic.Lib.ValueIdx
import Idealize.ShloMosaic.PureOps.Ideal.Laws

noncomputable section

namespace Cert.LibMinReduce

open Idealize.ShloMosaic Idealize.ShloMosaic.ValueIdx

/-- A float minimum reduction over one axis, at the ideal values: the minimum, from the accumulator's value, over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum of an `[a, b]` vector along its lanes, read at row `p`. -/
theorem multiReduction_minimumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (FloatOps.ofBits φ acc) (fun k => src (ix2 p k)) :=
  (multiReduction_minimumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

/-- The minimum of an `[a, b]` vector along its rows, read at column `q`. -/
theorem multiReduction_minimumf_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (FloatOps.ofBits φ acc) (fun k => src (ix2 k q)) :=
  (multiReduction_minimumf_single src acc h hφ hacc (ix1 q)).trans (by
    have e : (src ∘ h.lift (ix1 q)) = fun k : Fin a => src (ix2 k q) :=
      funext fun k => congrArg src (funext fun ax => Fin.ext (by
        match ax with
        | ⟨0, _⟩ => rfl
        | ⟨1, _⟩ => rfl))
    rw [e]; rfl)

/-- The host's reduce by minimum over the LAST axis of an `[n0, n1, n2]` array, read at `(a, b)`. -/
theorem hostReduce_min_last_apply {n0 n1 n2 : ℕ} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.minimumf (F := Ideal) (φ := φ)) x init h' hu (ix2 a b)
      = (Finset.univ : Finset (Fin n2)).fold min (init (Shape.Idx.first hu)) (fun k => x (ix3 a b k)) :=
  (Host.reduce_eq_fold_single _ x init h' h hu (ix2 a b)).trans (by
    have e : (x ∘ h.lift (ix2 a b)) = fun k : Fin n2 => x (ix3 a b k) :=
      funext fun k => congrArg x (funext fun ax => Fin.ext (by
        match ax with
        | ⟨0, _⟩ => rfl
        | ⟨1, _⟩ => rfl
        | ⟨2, _⟩ => rfl))
    rw [e]; rfl)

/-- The host's reduce by minimum over the MIDDLE axis of an `[n0, n1, n2]` array, read at `(a, b)`. -/
theorem hostReduce_min_mid_apply {n0 n1 n2 : ℕ} {φ : FTy} {u : Shape} (x : (⟨3, ![n0, n1, n2]⟩ : Shape).Idx → Ideal φ)
    (init : u.Idx → Ideal φ) (h' : (⟨3, ![n0, n1, n2]⟩ : Shape).ReducesTo [1] ⟨2, ![n0, n2]⟩)
    (h : (⟨3, ![n0, n1, n2]⟩ : Shape).Reduces [1] ⟨2, ![n0, n2]⟩) (hu : 0 < u.numel) (a : Fin n0) (b : Fin n2) :
    Host.reduce (FloatOps.minimumf (F := Ideal) (φ := φ)) x init h' hu (ix2 a b)
      = (Finset.univ : Finset (Fin n1)).fold min (init (Shape.Idx.first hu)) (fun k => x (ix3 a k b)) :=
  (Host.reduce_eq_fold_single _ x init h' h hu (ix2 a b)).trans (by
    have e : (x ∘ h.lift (ix2 a b)) = fun k : Fin n1 => x (ix3 a k b) :=
      funext fun k => congrArg x (funext fun ax => Fin.ext (by
        match ax with
        | ⟨0, _⟩ => rfl
        | ⟨1, _⟩ => rfl
        | ⟨2, _⟩ => rfl))
    rw [e]; rfl)

end Cert.LibMinReduce

end
-- ==== Proof.Tile.lean ====
/-
  The kernel body's values, read at an index at the ideal values. At one grid point the body holds a tile `x0 : [1, 128, 3]`
  of the first cloud and the whole second cloud of the batch, `x1 : [1, 8192, 3]`.

  * `tile_apply`: its distance tile at `(r, m)` is `sqd` of point `r` of the tile and point `m` of the second cloud — the
    row sums of squares laid out as a column and spread over lanes, the second cloud's as a row (a column transposed)
    and spread over rows, the product of rows against rows into the zero accumulator, each read at the index;
  * `rowMins_apply`: what it stores for the row minima, at `(0, r, 0)`: the minimum from the `+∞` word over `m` of the tile;
  * `colAcc_apply`: what it stores back into the running column minimum, at `(0, m)`: the old value there, `min` the
    minimum from the `+∞` word over the tile's rows `r`;
  * `fill_apply`, `colOut_apply`: the fill is the `+∞` word everywhere; the column output block is the running minimum
    with a unit axis added.
-/
import proofs.«124071_j88699664597867_2_alg».proof.Proof.Gen.KernelIdeal.Skeleton
import proofs.«124071_j88699664597867_2_alg».proof.Proof.Spec
import proofs.«124071_j88699664597867_2_alg».proof.Proof.LibColumn
import proofs.«124071_j88699664597867_2_alg».proof.Proof.LibRowSum
import proofs.«124071_j88699664597867_2_alg».proof.Proof.LibRowOps
import proofs.«124071_j88699664597867_2_alg».proof.Proof.LibMinReduce
import Idealize.ShloMosaic.Lib.ValueLayout

noncomputable section

open scoped BigOperators

namespace Cert.KernelIdeal.Tile

open Cert.KernelIdeal Cert.KernelIdeal.Gen Cert.Chamfer
open Idealize.ShloMosaic Idealize.ShloMosaic.ValueIdx

/-- Point `r` of a one-batch block of points. -/
def row {n : ℕ} (x : (⟨3, ![1, n, 3]⟩ : Shape).Idx → EReal) (r : Fin n) : Fin 3 → EReal := fun k => x (ix3 (0 : Fin 1) r k)

/-- The distance tile at `(r, m)`. -/
theorem tile_apply (x0 : Vec Ideal S1x128x3 .f32) (x1 : Vec Ideal S1x8192x3 .f32) (r : Fin 128) (m : Fin 8192) :
    k0_pay3 (F := Ideal) x0 x1 (ix2 r m) = sqd (row x0 r) (row x1 m) := by
  unfold k0_pay3 sqd row
  dsimp only
  rw [subf_apply, addf_apply, mulf_apply]
  refine congrArg₂ (· - ·) (congrArg₂ (· + ·) ?_ ?_) (congrArg₂ (· * ·) rfl ?_)
  · refine (Cert.LibColumn.broadcastTo_a1_ab_apply _ _ r m).trans ?_
    refine (Cert.LibColumn.shapeCast_a_a1_apply _ _ r 0).trans ?_
    refine (Cert.LibRowSum.multiReduction_add_lanes_apply _ _ _ _ _ r).trans ?_
    refine Finset.sum_congr rfl fun k _ => ?_
    rw [mulf_apply, shapeCast_1ab_ab_apply]
  · refine (broadcastTo_1b_ab_apply _ _ r m).trans ?_
    refine (transpose_ix2_apply _ _ (0 : Fin 1) m).trans ?_
    refine (Cert.LibColumn.shapeCast_a_a1_apply _ _ m 0).trans ?_
    refine (Cert.LibRowSum.multiReduction_add_lanes_apply _ _ _ _ _ m).trans ?_
    refine Finset.sum_congr rfl fun k _ => ?_
    rw [mulf_apply, shapeCast_1ab_ab_apply]
  · refine (Cert.LibRowOps.matmul_zero_rows_ix2 _ rfl rfl rfl rfl rfl rfl _ _ _ r m).trans ?_
    refine Finset.sum_congr rfl fun k _ => ?_
    rw [shapeCast_1ab_ab_apply, shapeCast_1ab_ab_apply]

/-- What the body stores for the row minima. -/
theorem rowMins_apply (x0 : Vec Ideal S1x128x3 .f32) (x1 : Vec Ideal S1x8192x3 .f32) (r : Fin 128) :
    k0_pay4 (F := Ideal) x0 x1 (ix3 (0 : Fin 1) r (0 : Fin 1))
      = (Finset.univ : Finset (Fin 8192)).fold min topW fun m => sqd (row x0 r) (row x1 m) := by
  unfold k0_pay4
  dsimp only
  refine (shapeCast_ab_1ab_apply _ _ (0 : Fin 1) r (0 : Fin 1)).trans ?_
  refine (Cert.LibColumn.shapeCast_a_a1_apply _ _ r 0).trans ?_
  refine (Cert.LibMinReduce.multiReduction_minimumf_lanes_apply _ _ _ _ _ r).trans ?_
  exact congrArg (fun f => Finset.fold min topW f Finset.univ) (funext fun m => tile_apply x0 x1 r m)

/-- What the body stores back into the running column minimum. -/
theorem colAcc_apply (x0 : Vec Ideal S1x128x3 .f32) (x1 : Vec Ideal S1x8192x3 .f32) (acc : Vec Ideal S1x8192 .f32) (m : Fin 8192) :
    k0_pay5 (F := Ideal) x0 x1 acc (ix2 (0 : Fin 1) m)
      = min (acc (ix2 (0 : Fin 1) m)) ((Finset.univ : Finset (Fin 128)).fold min topW fun r => sqd (row x0 r) (row x1 m)) := by
  unfold k0_pay5
  dsimp only
  rw [shapeCast_self, minimumf_apply]
  refine congrArg (min (acc (ix2 (0 : Fin 1) m))) ?_
  refine (shapeCast_a_1a_apply _ _ (0 : Fin 1) m).trans ?_
  refine (Cert.LibMinReduce.multiReduction_minimumf_rows_apply _ _ _ _ _ m).trans ?_
  exact congrArg (fun f => Finset.fold min topW f Finset.univ) (funext fun r => tile_apply x0 x1 r m)

/-- The fill is the `+∞` word everywhere. -/
theorem fill_apply (j : S1x8192.Idx) : k0_pay2 (F := Ideal) j = topW := by
  unfold k0_pay2
  rw [shapeCast_self]
  rfl

/-- The column output block is the running minimum with a unit axis added. -/
theorem colOut_apply (acc : Vec Ideal S1x8192 .f32) (m : Fin 8192) :
    k0_pay1 (F := Ideal) acc (ix3 (0 : Fin 1) (0 : Fin 1) m) = acc (ix2 (0 : Fin 1) m) := by
  unfold k0_pay1
  exact shapeCast_ab_1ab_apply _ _ (0 : Fin 1) (0 : Fin 1) m

end Cert.KernelIdeal.Tile

end
-- ==== Proof.LibBlockedMin.lean ====
/-
  A minimum taken block by block. Over a linear order, `prefixMin e f L` is the minimum, starting from `e`, of a
  family `f : Fin N → α` over the indices below `L`. It is characterised by its lower bounds (`le_prefixMin`): `y` is
  below it exactly when `y ≤ e` and `y ≤ f n` for every `n < L`. From that:

  * `prefixMin_zero`: over no index it is `e`;
  * `prefixMin_full`: over every index it is the minimum of the whole family from `e`;
  * `prefixMin_block`: the prefix over `i` blocks of `B` indices, combined by `min` with the minimum (again from `e`) of
    block `i`, is the prefix over `i + 1` blocks — so a running minimum accumulated block by block, each block's own
    minimum started from the same `e`, is the minimum of everything seen so far;
  * `prefixMin_first`: in particular `min e (minimum of block 0) ` is the prefix over one block.
  Any linear order, any `N`, `B`.
-/
import Mathlib.Data.Finset.Fold
import Mathlib.Data.Fintype.Basic
import Mathlib.Order.Fin.Basic

namespace Cert.LibBlockedMin

variable {α : Type*} [LinearOrder α]

/-- The minimum, from `e`, of `f` over the indices below `L`. -/
def prefixMin {N : ℕ} (e : α) (f : Fin N → α) (L : ℕ) : α :=
  (Finset.univ.filter fun n : Fin N => n.val < L).fold min e f

/-- Its lower bounds: those of `e` and of every `f n`, `n < L`. -/
theorem le_prefixMin {N : ℕ} (e : α) (f : Fin N → α) (L : ℕ) (y : α) :
    y ≤ prefixMin e f L ↔ y ≤ e ∧ ∀ n : Fin N, n.val < L → y ≤ f n := by
  unfold prefixMin
  rw [Finset.le_fold_min]
  simp only [Finset.mem_filter, Finset.mem_univ, true_and]

/-- Over no index the minimum is the starting value. -/
theorem prefixMin_zero {N : ℕ} (e : α) (f : Fin N → α) : prefixMin e f 0 = e := by
  refine eq_of_forall_le_iff fun y => ?_
  rw [le_prefixMin]
  exact ⟨fun h => h.1, fun h => ⟨h, fun n hn => absurd hn (Nat.not_lt_zero _)⟩⟩

/-- Over every index it is the minimum of the whole family. -/
theorem prefixMin_full {N : ℕ} (e : α) (f : Fin N → α) {L : ℕ} (hL : N ≤ L) :
    prefixMin e f L = (Finset.univ : Finset (Fin N)).fold min e f := by
  refine eq_of_forall_le_iff fun y => ?_
  rw [le_prefixMin, Finset.le_fold_min]
  exact ⟨fun h => ⟨h.1, fun n _ => h.2 n (lt_of_lt_of_le n.isLt hL)⟩, fun h => ⟨h.1, fun n _ => h.2 n (Finset.mem_univ n)⟩⟩

/-- One more block: the prefix over `i` blocks of `B`, `min` the minimum of block `i` (`g r` is `f` at `B * i + r`),
    is the prefix over `i + 1` blocks. -/
theorem prefixMin_block {N : ℕ} (e : α) (f : Fin N → α) (B i : ℕ) (hN : B * (i + 1) ≤ N) (g : Fin B → α)
    (hg : ∀ (r : Fin B) (n : Fin N), n.val = B * i + r.val → g r = f n) :
    min (prefixMin e f (B * i)) ((Finset.univ : Finset (Fin B)).fold min e g) = prefixMin e f (B * (i + 1)) := by
  have hs : B * (i + 1) = B * i + B := Nat.mul_succ B i
  refine eq_of_forall_le_iff fun y => ?_
  rw [le_min_iff, le_prefixMin, le_prefixMin, Finset.le_fold_min]
  constructor
  · rintro ⟨⟨he, hlo⟩, -, hblk⟩
    refine ⟨he, fun n hn => ?_⟩
    by_cases hlt : n.val < B * i
    · exact hlo n hlt
    · have hr : n.val - B * i < B := by omega
      have := hblk ⟨n.val - B * i, hr⟩ (Finset.mem_univ _)
      rwa [hg ⟨n.val - B * i, hr⟩ n (by simp only; omega)] at this
  · rintro ⟨he, hall⟩
    refine ⟨⟨he, fun n hn => hall n (by omega)⟩, he, fun r _ => ?_⟩
    have hr := r.isLt
    have hlt : B * i + r.val < N := by omega
    rw [hg r ⟨B * i + r.val, hlt⟩ rfl]
    exact hall ⟨B * i + r.val, hlt⟩ (by simp only; omega)

/-- The first block: `min e` (the minimum of block 0) is the prefix over one block. -/
theorem prefixMin_first {N : ℕ} (e : α) (f : Fin N → α) (B : ℕ) (hN : B ≤ N) (g : Fin B → α)
    (hg : ∀ (r : Fin B) (n : Fin N), n.val = r.val → g r = f n) :
    min e ((Finset.univ : Finset (Fin B)).fold min e g) = prefixMin e f B := by
  have h := prefixMin_block e f B 0 (by omega) g (fun r n hn => hg r n (by omega))
  rw [Nat.mul_zero, prefixMin_zero] at h
  rw [h, Nat.zero_add, Nat.mul_one]

end Cert.LibBlockedMin
-- ==== Proof.Carried.lean ====
/-
  The grid walks the 4 batches in order and, within batch `b`, the 64 tiles of 128 points of the first cloud: point
  `t` is batch `t / 64`, tile `t % 64`. This module follows what the body leaves from point to point.

  * The index maps, decided once over the 256 points: the first cloud's window and the row-minimum window are at block
    `(t / 64, t % 64, 0)`, the second cloud's and the column-minimum window at block `(t / 64, 0, 0)`.
  * So the tile the body loads at `t` holds the points `128 · (t % 64) + r` of the first cloud of batch `t / 64`, and the
    other block the whole second cloud of that batch (`tileRow`, `cloudRow`).
  * At every point the row-minimum block ends at the row minima of the tile (`rowBlock`), the column-minimum block at the
    running minimum with a unit axis added (`colBlock`), and the running minimum at `min` (what it held) (the tile's
    column minima), started from the `+∞` fill at the first tile of a batch (`running_first`, `running_next`).
  * Hence, by induction on the point, the running minimum after point `t`, at `m`, is the minimum over the points
    `n < 128 · (t % 64 + 1)` of the first cloud of `sqd (X0 b n) (X1 b m)` (`running_apply`): a minimum accumulated tile
    by tile is the minimum over everything seen so far. After the last tile of a batch that is the column minimum.
-/
import proofs.«124071_j88699664597867_2_alg».proof.Proof.Pieces
import proofs.«124071_j88699664597867_2_alg».proof.Proof.Tile
import proofs.«124071_j88699664597867_2_alg».proof.Proof.LibBlockedMin

noncomputable section

open scoped BigOperators

namespace Cert.KernelIdeal.Carried

open Cert.KernelIdeal Cert.KernelIdeal.Gen Cert.Chamfer Cert.KernelIdeal.Tile Cert.KernelIdeal.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two clouds as the kernel's run finds them. -/
abbrev X0 (c : Dev nD) : Pts.Idx → EReal := m ((c : Thread nD τ).loc main_arg0)
abbrev X1 (c : Dev nD) : Pts.Idx → EReal := m ((c : Thread nD τ).loc main_arg1)

/-- The printed index maps, decided over the grid. -/
theorem idx_facts : ∀ t : Fin cfg0.N,
    win0_0.index t (0 : Fin 3) = t.val / 64 ∧ win0_0.index t (1 : Fin 3) = t.val % 64 ∧ win0_0.index t (2 : Fin 3) = 0
    ∧ win0_1.index t (0 : Fin 3) = t.val / 64 ∧ win0_1.index t (1 : Fin 3) = 0 ∧ win0_1.index t (2 : Fin 3) = 0
    ∧ win0_2.index t (0 : Fin 3) = t.val / 64 ∧ win0_2.index t (1 : Fin 3) = t.val % 64 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- Point `r` of the tile loaded at `t` is point `128 · (t % 64) + r` of the first cloud of batch `t / 64`. -/
theorem tileRow (c : Dev nD) (t : Fin cfg0.N) (r : Fin 128) (b : Fin 4) (n : Fin 8192) (hb : b.val = t.val / 64)
    (hn : n.val = 128 * (t.val % 64) + r.val) :
    row (iblk m c 0 t : Vec Ideal S1x128x3 .f32) r = pt (X0 m c) b n := by
  obtain ⟨e0, e1, e2, -⟩ := idx_facts t
  funext k
  unfold row pt iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 128 + 1 * r.val = n.val; omega
  | ⟨2, _⟩ => show win0_0.index t (2 : Fin 3) * 3 + 1 * k.val = k.val; omega

/-- Point `q` of the other block loaded at `t` is point `q` of the second cloud of batch `t / 64`. -/
theorem cloudRow (c : Dev nD) (t : Fin cfg0.N) (q : Fin 8192) (b : Fin 4) (hb : b.val = t.val / 64) :
    row (iblk m c 1 t : Vec Ideal S1x8192x3 .f32) q = pt (X1 m c) b q := by
  obtain ⟨-, -, -, e0, e1, e2, -⟩ := idx_facts t
  funext k
  unfold row pt iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 3) * 1 + 1 * 0 = b.val; omega
  | ⟨1, _⟩ => show win0_1.index t (1 : Fin 3) * 8192 + 1 * q.val = q.val; omega
  | ⟨2, _⟩ => show win0_1.index t (2 : Fin 3) * 3 + 1 * k.val = k.val; omega

/-- At the first tile of a batch the three buffers end at the tile's payloads over the `+∞` fill. -/
theorem outs_first (c : Dev nD) (t : Fin cfg0.N) (h0 : t.val % 64 = 0) :
    outsAt0 m c t.val t.isLt
      = (k0_pay4 (iblk m c 0 t) (iblk m c 1 t), k0_pay1 (k0_pay5 (iblk m c 0 t) (iblk m c 1 t) (k0_pay2 (F := Ideal))),
          k0_pay5 (iblk m c 0 t) (iblk m c 1 t) (k0_pay2 (F := Ideal))) :=
  (outsAt0_A m c t h0).trans (congrArg₂ Prod.mk
    (out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
    (congrArg₂ Prod.mk
      (out_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
      (sout_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))))

/-- At any other tile they end at the tile's payloads over what the point before left in the running minimum. -/
theorem outs_next (c : Dev nD) (t : Fin cfg0.N) (h0 : ¬t.val % 64 = 0) :
    outsAt0 m c t.val t.isLt
      = (k0_pay4 (iblk m c 0 t) (iblk m c 1 t),
          k0_pay1 (k0_pay5 (iblk m c 0 t) (iblk m c 1 t) (outsAt0 m c (t.val - 1) (Nat.lt_of_le_of_lt (Nat.sub_le _ _) t.isLt)).2.2),
          k0_pay5 (iblk m c 0 t) (iblk m c 1 t) (outsAt0 m c (t.val - 1) (Nat.lt_of_le_of_lt (Nat.sub_le _ _) t.isLt)).2.2) :=
  (outsAt0_B m c t h0).trans (congrArg₂ Prod.mk
    (out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) _)
    (congrArg₂ Prod.mk
      (out_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) _)
      (sout_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) _)))

/-- At every point the row-minimum block ends at the row minima of the tile. -/
theorem rowBlock (c : Dev nD) (t : Fin cfg0.N) :
    (outsAt0 m c t.val t.isLt).1 = k0_pay4 (iblk m c 0 t) (iblk m c 1 t) := by
  by_cases h0 : t.val % 64 = 0
  · rw [outs_first m c t h0]
  · rw [outs_next m c t h0]

/-- At every point the column-minimum block ends at the running minimum with a unit axis added. -/
theorem colBlock (c : Dev nD) (t : Fin cfg0.N) :
    (outsAt0 m c t.val t.isLt).2.1 = k0_pay1 (outsAt0 m c t.val t.isLt).2.2 := by
  by_cases h0 : t.val % 64 = 0
  · rw [outs_first m c t h0]
  · rw [outs_next m c t h0]

/-- The tile's column minimum at `q`, from the `+∞` word. -/
abbrev tileColMin (c : Dev nD) (t : Fin cfg0.N) (q : Fin 8192) : EReal :=
  (Finset.univ : Finset (Fin 128)).fold min topW fun r => sqd (row (iblk m c 0 t : Vec Ideal S1x128x3 .f32) r) (row (iblk m c 1 t : Vec Ideal S1x8192x3 .f32) q)

/-- The running minimum after the first tile of a batch. -/
theorem running_first (c : Dev nD) (t : Fin cfg0.N) (h0 : t.val % 64 = 0) (q : Fin 8192) :
    (outsAt0 m c t.val t.isLt).2.2 (ix2 (0 : Fin 1) q) = min topW (tileColMin m c t q) := by
  rw [outs_first m c t h0]
  refine (colAcc_apply (iblk m c 0 t) (iblk m c 1 t) (k0_pay2 (F := Ideal)) q).trans ?_
  rw [fill_apply]

/-- The running minimum after any other tile. -/
theorem running_next (c : Dev nD) (t : Fin cfg0.N) (h0 : ¬t.val % 64 = 0) (q : Fin 8192) :
    (outsAt0 m c t.val t.isLt).2.2 (ix2 (0 : Fin 1) q)
      = min ((outsAt0 m c (t.val - 1) (Nat.lt_of_le_of_lt (Nat.sub_le _ _) t.isLt)).2.2 (ix2 (0 : Fin 1) q)) (tileColMin m c t q) := by
  rw [outs_next m c t h0]
  exact colAcc_apply (iblk m c 0 t) (iblk m c 1 t) _ q

/-- The distances from the points of the first cloud of batch `b` to point `q` of the second. -/
abbrev toCol (c : Dev nD) (b : Fin 4) (q : Fin 8192) : Fin 8192 → EReal := fun p => sqd (pt (X0 m c) b p) (pt (X1 m c) b q)

/-- The tile's entries are those distances, at the tile's points. -/
theorem tile_entry (c : Dev nD) (t : Fin cfg0.N) (b : Fin 4) (hb : b.val = t.val / 64) (q : Fin 8192) (r : Fin 128) (p : Fin 8192)
    (hp : p.val = 128 * (t.val % 64) + r.val) :
    sqd (row (iblk m c 0 t : Vec Ideal S1x128x3 .f32) r) (row (iblk m c 1 t : Vec Ideal S1x8192x3 .f32) q) = toCol m c b q p := by
  rw [tileRow m c t r b p hb hp, cloudRow m c t q b hb]

/-- THE RUNNING MINIMUM after point `n`: the minimum over the first `128 · (n % 64 + 1)` points of the first cloud. -/
theorem running_apply (c : Dev nD) : ∀ (n : ℕ) (hn : n < cfg0.N) (b : Fin 4), b.val = n / 64 → ∀ q : Fin 8192,
    (outsAt0 m c n hn).2.2 (ix2 (0 : Fin 1) q) = Cert.LibBlockedMin.prefixMin topW (toCol m c b q) (128 * (n % 64 + 1)) := by
  intro n
  induction n with
  | zero =>
    intro hn b hb q
    refine (running_first m c ⟨0, hn⟩ rfl q).trans ?_
    exact Cert.LibBlockedMin.prefixMin_first topW (toCol m c b q) 128 (by omega) _
      (fun r p hp => tile_entry m c ⟨0, hn⟩ b hb q r p (by show p.val = 128 * (0 % 64) + r.val; omega))
  | succ n ih =>
    intro hn b hb q
    have hN : n + 1 < 256 := lt_of_lt_of_eq hn (show cfg0.N = 256 from N_0)
    by_cases h0 : (n + 1) % 64 = 0
    · refine (running_first m c ⟨n + 1, hn⟩ h0 q).trans ?_
      rw [h0]
      exact Cert.LibBlockedMin.prefixMin_first topW (toCol m c b q) 128 (by omega) _
        (fun r p hp => tile_entry m c ⟨n + 1, hn⟩ b hb q r p (by show p.val = 128 * ((n + 1) % 64) + r.val; omega))
    · refine (running_next m c ⟨n + 1, hn⟩ h0 q).trans ?_
      have ih' := ih (Nat.lt_of_succ_lt hn) b (by omega) q
      refine (congrArg (fun z => min z (tileColMin m c ⟨n + 1, hn⟩ q)) ih').trans ?_
      rw [show 128 * (n % 64 + 1) = 128 * ((n + 1) % 64) from by omega]
      exact Cert.LibBlockedMin.prefixMin_block topW (toCol m c b q) 128 ((n + 1) % 64) (by omega) _
        (fun r p hp => tile_entry m c ⟨n + 1, hn⟩ b hb q r p hp)

end Cert.KernelIdeal.Carried

end
-- ==== Proof.Arrays.lean ====
/-
  From blocks to arrays. Every point writes back its row-minimum block, block `(t / 64, t % 64, 0)` of the `[4, 8192, 1]`
  result; the column-minimum block, block `(t / 64, 0, 0)` of the `[4, 1, 8192]` result, is written back only after the
  last tile of a batch (`t % 64 = 63`), when the running minimum has seen all 8192 points of the first cloud.

  * `flushed_rows`: what point `t` writes back for the rows is block `t` of the array of row minima — entry `(0, r, 0)` is
    the minimum over `m` of the tile's row `r`, which is point `128 · (t % 64) + r` of batch `t / 64`;
  * `flushed_cols`: what a last tile writes back for the columns is block `t` of the array of column minima — the
    prefix minimum over all `128 · 64 = 8192` points is the whole minimum;
  * the row blocks of all 256 points tile the first array, the column blocks of the four last tiles tile the second;
  * so the two arrays end at `rowArr` and `colArr` of the two clouds (`final_rows`, `final_cols`).
-/
import proofs.«124071_j88699664597867_2_alg».proof.Proof.Carried
import Idealize.ShloMosaic.Lib.Pipeline.Value

noncomputable section

open scoped BigOperators

namespace Cert.KernelIdeal.Arrays

open Cert.KernelIdeal Cert.KernelIdeal.Gen Cert.Chamfer Cert.KernelIdeal.Tile Cert.KernelIdeal.Carried
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- WHAT POINT `t` WRITES BACK FOR THE ROWS is block `t` of the array of row minima. -/
theorem flushed_rows (c : Dev nD) (t : Fin cfg0.N) :
    (dats m 0 c).flushed 2 t = ((cfg0.win 2).blk t).view.read (Elt Ideal) (rowArr (X0 m c) (X1 m c)) := by
  have hN : t.val < 256 := lt_of_lt_of_eq t.isLt (show cfg0.N = 256 from N_0)
  obtain ⟨-, -, -, -, -, -, e0, e1, e2, -⟩ := idx_facts t
  show (cfg0.win 2).cut (grid0.coords t) ((dats m 0 c).after 2 t) = _
  rw [after0_2, rowBlock m c t]
  refine funext fun (y : S1x128x1.Idx) => ?_
  obtain ⟨u, r, w, rfl⟩ : ∃ (u : Fin 1) (r : Fin 128) (w : Fin 1), y = ix3 u r w := ⟨y 0, y 1, y 2, eq_ix3 y⟩
  obtain rfl : u = 0 := Subsingleton.elim _ _
  obtain rfl : w = 0 := Subsingleton.elim _ _
  have hr := r.isLt
  let b : Fin 4 := ⟨t.val / 64, by omega⟩
  let n : Fin 8192 := ⟨128 * (t.val % 64) + r.val, by omega⟩
  refine (rowMins_apply (iblk m c 0 t) (iblk m c 1 t) r).trans ?_
  rw [View.read_apply]
  have hemb : ((cfg0.win 2).blk t).view.emb (ix3 (0 : Fin 1) r (0 : Fin 1)) = ix3 b n (0 : Fin 1) := by
    funext a; apply Fin.ext
    match a with
    | ⟨0, _⟩ => show win0_2.index t (0 : Fin 3) * 1 + 1 * 0 = t.val / 64; omega
    | ⟨1, _⟩ => show win0_2.index t (1 : Fin 3) * 128 + 1 * r.val = 128 * (t.val % 64) + r.val; omega
    | ⟨2, _⟩ => show win0_2.index t (2 : Fin 3) * 1 + 1 * 0 = 0; omega
  rw [hemb]
  show _ = rowMin (X0 m c) (X1 m c) b n
  unfold rowMin
  refine congrArg (fun f => Finset.fold min topW f Finset.univ) (funext fun q => ?_)
  rw [tileRow m c t r b n rfl rfl, cloudRow m c t q b rfl]

/-- WHAT THE LAST TILE OF A BATCH WRITES BACK FOR THE COLUMNS is block `t` of the array of column minima. -/
theorem flushed_cols (c : Dev nD) (t : Fin cfg0.N) (hf : (cfg0.win 3).flush t = true) :
    (dats m 0 c).flushed 3 t = ((cfg0.win 3).blk t).view.read (Elt Ideal) (colArr (X0 m c) (X1 m c)) := by
  have hN : t.val < 256 := lt_of_lt_of_eq t.isLt (show cfg0.N = 256 from N_0)
  have h63 : t.val % 64 = 63 := (flush0_3 t).mp hf
  obtain ⟨-, -, -, -, -, -, -, -, -, e0, e1, e2⟩ := idx_facts t
  show (cfg0.win 3).cut (grid0.coords t) ((dats m 0 c).after 3 t) = _
  rw [after0_3, colBlock m c t]
  refine funext fun (y : S1x1x8192.Idx) => ?_
  obtain ⟨u, w, q, rfl⟩ : ∃ (u : Fin 1) (w : Fin 1) (q : Fin 8192), y = ix3 u w q := ⟨y 0, y 1, y 2, eq_ix3 y⟩
  obtain rfl : u = 0 := Subsingleton.elim _ _
  obtain rfl : w = 0 := Subsingleton.elim _ _
  have hq := q.isLt
  let b : Fin 4 := ⟨t.val / 64, by omega⟩
  refine (colOut_apply _ q).trans ?_
  refine (running_apply m c t.val t.isLt b rfl q).trans ?_
  rw [h63]
  refine (Cert.LibBlockedMin.prefixMin_full topW _ (by omega)).trans ?_
  rw [View.read_apply]
  have hemb : ((cfg0.win 3).blk t).view.emb (ix3 (0 : Fin 1) (0 : Fin 1) q) = ix3 b (0 : Fin 1) q := by
    funext a; apply Fin.ext
    match a with
    | ⟨0, _⟩ => show win0_3.index t (0 : Fin 3) * 1 + 1 * 0 = t.val / 64; omega
    | ⟨1, _⟩ => show win0_3.index t (1 : Fin 3) * 1 + 1 * 0 = 0; omega
    | ⟨2, _⟩ => show win0_3.index t (2 : Fin 3) * 8192 + 1 * q.val = q.val; omega
  rw [hemb]
  rfl

/-- An index of the row array is in point `t`'s block iff each coordinate is in the block's range on its axis. -/
theorem mem_rowBlk (t : Fin cfg0.N) (i : S4x8192x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v0_0).slice (win0_2.rect t)).set ↔ _
  rw [View.set_slice_whole, Rect.mem_set_unit]
  exact Iff.rfl

/-- The same for the column array. -/
theorem mem_colBlk (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Row `(b, n)` is in the block of tile `n / 128` of batch `b`. -/
theorem cover_rows (i : S4x8192x1.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  have hN : cfg0.N = 256 := N_0
  let t : Fin cfg0.N := ⟨64 * (i 0).val + (i 1).val / 128, by rw [hN]; omega⟩
  have htv : t.val = 64 * (i 0).val + (i 1).val / 128 := rfl
  obtain ⟨-, -, -, -, -, -, e0, e1, e2, -⟩ := idx_facts t
  refine ⟨t, flush0_2 t, ?_⟩
  rw [mem_rowBlk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1 ≤ (i 2).val ∧ (i 2).val < win0_2.index t (2 : Fin 3) * 1 + 1; omega

/-- Column `(b, m)` is in the block the last tile of batch `b` writes back. -/
theorem cover_cols (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 256 := N_0
  let t : Fin cfg0.N := ⟨64 * (i 0).val + 63, by rw [hN]; omega⟩
  have htv : t.val = 64 * (i 0).val + 63 := rfl
  obtain ⟨-, -, -, -, -, -, -, -, -, e0, e1, e2⟩ := idx_facts t
  refine ⟨t, (flush0_3 t).mpr (by omega), ?_⟩
  rw [mem_colBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The first result array ends at the row minima. -/
theorem final_rows (c : Dev nD) : (dats m 0 c).arrAt 2 cfg0.N = rowArr (X0 m c) (X1 m c) :=
  (dats m 0 c).arrAt_eq_of_cover 2 (rowArr (X0 m c) (X1 m c)) (fun t _ => flushed_rows m c t) cover_rows

/-- The second result array ends at the column minima. -/
theorem final_cols (c : Dev nD) : (dats m 0 c).arrAt 3 cfg0.N = colArr (X0 m c) (X1 m c) :=
  (dats m 0 c).arrAt_eq_of_cover 3 (colArr (X0 m c) (X1 m c)) (flushed_cols m c) cover_cols

end Cert.KernelIdeal.Arrays

end
-- ==== Proof.KernelValue.lean ====
/-
  The kernel's run, read: the program ends with its result at the mean of means of the row and column minima of the two
  clouds, and its arguments unchanged.

  The frame run leaves the two result arrays at what the write-backs made of them (the arrays of row and column
  minima) and every other buffer at what the host lines after the region compute from them. Those lines reshape the two
  arrays to `[4, 8192]` — dropping a unit axis, so the entries are the same row and column minima — and then take the mean
  of means, the tail shared with the reference, which is carried as one function and not opened.
-/
import proofs.«124071_j88699664597867_2_alg».proof.Proof.Arrays
import Idealize.ShloMosaic.Lib.StableHlo.Run

noncomputable section

open scoped BigOperators

namespace Cert.KernelIdeal.KernelValue

open Cert.KernelIdeal Cert.KernelIdeal.Gen Cert.Chamfer Cert.KernelIdeal.Carried Cert.KernelIdeal.Arrays
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The kernel's first result array, as the host lines after the region find it, holds the row minima. -/
theorem rows_found (c : Dev nD) :
    Pipeline.withArrays (cfgs 0).spec c (V0 m c) (fun w => (dats m 0 c).arrAt w (cfgs 0).N) (Proc.devRef .tc main_v0_0)
      = rowArr (X0 m c) (X1 m c) :=
  (Pipeline.withArrays_arr spec0 launch0.win.arr_inj c _ _ 2).trans (final_rows m c)

/-- The second holds the column minima. -/
theorem cols_found (c : Dev nD) :
    Pipeline.withArrays (cfgs 0).spec c (V0 m c) (fun w => (dats m 0 c).arrAt w (cfgs 0).N) (Proc.devRef .tc main_v0_1)
      = colArr (X0 m c) (X1 m c) :=
  (Pipeline.withArrays_arr spec0 launch0.win.arr_inj c _ _ 3).trans (final_cols m c)

/-- The host lines after the region: the two result arrays reshaped to `[4, 8192]` are the matrices of row and column
    minima, and the rest is the mean of means, which is not opened. -/
theorem tail_eq (c : Dev nD) :
    Pipeline.afterTail₀ cfgs (dats m) 0 (V0 m) [hostOps1] c main_v11
      = meanOfMeans reducesTo_S4x8192_S4_d1 h_S_ bcast_S_S4 reducesTo_S4_S_d0 (rowMat (X0 m c) (X1 m c)) (colMat (X0 m c) (X1 m c)) := by
  unfold Pipeline.afterTail₀
  show StableHlo.after hostOps1 _ (Proc.devRef .tc main_v11) = _
  after_results
  rw [rows_found m c, cols_found m c]
  refine congrArg₂ (meanOfMeans reducesTo_S4x8192_S4_d1 h_S_ bcast_S_S4 reducesTo_S4_S_d0) ?_ ?_
  · funext j
    obtain ⟨b, n, rfl⟩ : ∃ (b : Fin 4) (n : Fin 8192), j = ix2 b n := ⟨j 0, j 1, eq_ix2 j⟩
    exact shapeCast_ab1_ab_apply (rowArr (X0 m c) (X1 m c)) shapeCasts_S4x8192x1_S4x8192 b n
  · funext j
    obtain ⟨b, q, rfl⟩ : ∃ (b : Fin 4) (q : Fin 8192), j = ix2 b q := ⟨j 0, j 1, eq_ix2 j⟩
    exact shapeCast_a1b_ab_apply (colArr (X0 m c) (X1 m c)) shapeCasts_S4x1x8192_S4x8192 b q

/-- The kernel's result on core `c`. -/
def result (c : Dev nD) : Buf (Elt Ideal) ((c : Thread nD τ).loc main_v11) :=
  meanOfMeans reducesTo_S4x8192_S4_d1 h_S_ bcast_S_S4 reducesTo_S4_S_d0 (rowMat (X0 m c) (X1 m c)) (colMat (X0 m c) (X1 m c))

/-- The run, read: the result at the mean of means of the two minimum matrices, the two clouds unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v11 (Pipeline.mem_restRefs_of main_v11 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference, read against the specification. Its run ends at the composed term of its operations; the last stretch
  of that term is the mean-of-means tail applied to its two minimum arrays (by unfolding), and each minimum array is the
  specification's: at `(b, n)` the host's reduce by minimum over the last axis is the minimum, from the `+∞` word, over
  `m` of the distance array's entry `(b, n, m)`, and that entry is `(|x_n|² + |y_m|²) − 2 · (x_n · y_m)` — the two squared
  norms the host's sums over the three coordinates started from the zero word (which is the extended real `0`), the
  product the host's `dot_general` — i.e. `sqd` of the two points. The column minima likewise, over the middle axis.
-/
import proofs.«124071_j88699664597867_2_alg».proof.Defs
import proofs.«124071_j88699664597867_2_alg».proof.Proof.Gen.ReferenceIdeal.Read
import proofs.«124071_j88699664597867_2_alg».proof.Proof.Spec
import proofs.«124071_j88699664597867_2_alg».proof.Proof.LibMinReduce

noncomputable section

open scoped BigOperators

namespace Cert.ReferenceIdeal.RefValue

open Cert.ReferenceIdeal Cert.ReferenceIdeal.Gen Cert.ReferenceIdeal.Read Cert.Chamfer
open Idealize.ShloMosaic Idealize.ShloMosaic.ValueIdx

/-- The reference's distance array at `(b, n, m)` is the squared distance of point `n` of the first cloud and point `m` of
    the second. -/
theorem dist_apply (x0 x1 : Pts.Idx → EReal) (b : Fin 4) (n m : Fin 8192) :
    val_main_v12 (F := Ideal) x0 x1 (ix3 b n m) = sqd (pt x0 b n) (pt x1 b m) := by
  have h1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have h3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have hl : ∀ k : Fin 3, lidx_main_v4 (ix3 b n m) k = ix3 b n k := fun k =>
    funext fun a => Fin.ext (by match a with | ⟨0, _⟩ => rfl | ⟨1, _⟩ => rfl | ⟨2, _⟩ => rfl)
  have hr : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply, val_main_v4_apply]
  simp only [val_main_v0_apply, val_main_v2_apply, val_main_cst_apply, val_main_cst_0_apply, val_main_cst_1_apply,
    h1, h3, hl, hr, Ideal.subf_def, Ideal.addf_def, Ideal.mulf_def, Ideal.ofBits_def, Ideal.ofBits_zero_f32, zero_add]
  rfl

/-- The reference's row minima are the specification's. -/
theorem rowMin_eq (x0 x1 : Pts.Idx → EReal) : val_main_v13 (F := Ideal) x0 x1 = rowMat x0 x1 := by
  funext j
  obtain ⟨b, n, rfl⟩ : ∃ (b : Fin 4) (n : Fin 8192), j = ix2 b n := ⟨j 0, j 1, eq_ix2 j⟩
  unfold val_main_v13
  rw [Cert.LibMinReduce.hostReduce_min_last_apply _ _ reducesTo_S4x8192x8192_S4x8192_d2 (by decide) h_S_ b n]
  unfold rowMat rowMin
  exact congrArg₂ (fun e f => Finset.fold min e f Finset.univ) rfl (funext fun m => dist_apply x0 x1 b n m)

/-- The reference's column minima are the specification's. -/
theorem colMin_eq (x0 x1 : Pts.Idx → EReal) : val_main_v17 (F := Ideal) x0 x1 = colMat x0 x1 := by
  funext j
  obtain ⟨b, m, rfl⟩ : ∃ (b : Fin 4) (m : Fin 8192), j = ix2 b m := ⟨j 0, j 1, eq_ix2 j⟩
  unfold val_main_v17
  rw [Cert.LibMinReduce.hostReduce_min_mid_apply _ _ reducesTo_S4x8192x8192_S4x8192_d1 (by decide) h_S_ b m]
  unfold colMat colMin
  exact congrArg₂ (fun e f => Finset.fold min e f Finset.univ) rfl (funext fun n => dist_apply x0 x1 b n m)

/-- The reference's result is the tail of the specification's two minimum arrays. -/
theorem result_eq (x0 x1 : Pts.Idx → EReal) :
    val_main_v23 (F := Ideal) x0 x1
      = meanOfMeans reducesTo_S4x8192_S4_d1 h_S_ bcast_S_S4 reducesTo_S4_S_d0 (rowMat x0 x1) (colMat x0 x1) := by
  rw [← rowMin_eq, ← colMin_eq]
  rfl

end Cert.ReferenceIdeal.RefValue

end
-- ==== Proof.lean ====
/-
  The certificate of a Chamfer-distance kernel against its jnp reference, over the extended reals.

  Both programs take two clouds of 8192 points of 3-space in each of 4 batches and return one number: the mean over the
  batches of (the mean over the first cloud's points of the squared distance to the nearest point of the second + the
  mean over the second cloud's points of the squared distance to the nearest point of the first), the squared distance
  taken as `(|p|² + |q|²) − 2 · (p · q)`. The reference forms the whole `[4, 8192, 8192]` distance array and reduces it by
  minimum along each of its two point axes. The kernel walks the first cloud in tiles of 128 points: for each tile it
  forms the `[128, 8192]` distance tile, writes the tile's row minima, and folds the tile's column minima into a running
  minimum carried from tile to tile (filled with `+∞` at the first tile of a batch), which it writes out after the last.

  Why they agree at the ideal values: entry by entry the two distance arrays are the same expression of the same
  coordinates (a lane sum against a host sum, a product of rows against rows against the host's `dot_general`, all
  exact); a row minimum is the same minimum over the same 8192 entries; and a minimum accumulated tile by tile, each
  tile's own minimum started from the same `+∞` word, is the minimum over every row seen so far, hence after 64 tiles
  the column minimum. Only commutativity, associativity and idempotence of `min` are used, and the sums are the same
  sums, so no finiteness of the inputs is needed. The mean of means is the same host operations on both sides.

  The three frames are the generated ones (the reference's its generated run with the result dropped); the ideal pass
  rewrote nothing, so `preserves` is trivial.
-/
import proofs.«124071_j88699664597867_2_alg».proof.Defs
import proofs.«124071_j88699664597867_2_alg».proof.Proof.Gen.Kernel
import proofs.«124071_j88699664597867_2_alg».proof.Proof.Gen.Kernel.Frame
import proofs.«124071_j88699664597867_2_alg».proof.Proof.Gen.KernelIdeal
import proofs.«124071_j88699664597867_2_alg».proof.Proof.Gen.KernelIdeal.Frame
import proofs.«124071_j88699664597867_2_alg».proof.Proof.Gen.ReferenceIdeal
import proofs.«124071_j88699664597867_2_alg».proof.Proof.Gen.ReferenceIdeal.Run
import proofs.«124071_j88699664597867_2_alg».proof.Proof.Gen.Pre_finite_inputs
import proofs.«124071_j88699664597867_2_alg».proof.Proof.KernelValue
import proofs.«124071_j88699664597867_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal values the kernel ends at the mean of means of the row and column minima of its two clouds, and the
    reference, from clouds that agree, at the same. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
